-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2048x256 : Shape := ⟨2, ![2048, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S65536x256 .f32) (main_arg1 : FVec F S2048x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S65536x256 : Shape := ⟨2, ![65536, 256]⟩
abbrev S2048x256 : Shape := ⟨2, ![2048, 256]⟩
abbrev S65536x2305 : Shape := ⟨2, ![65536, 2305]⟩
abbrev S512x256 : Shape := ⟨2, ![512, 256]⟩
abbrev S512x2305 : Shape := ⟨2, ![512, 2305]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S256x2048 : Shape := ⟨2, ![256, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S2048x256, .f32⟩
  | .hbm, ⟨2, _⟩ => ⟨S65536x2305, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S512x2305, .f32⟩
  | .local _ .vmem, ⟨4, _⟩ => ⟨S512x2305, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2305 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  reduces_S512x256_S512 : S512x256.Reduces [1] S512
  shapeCasts_S512_S512x1 : S512.ShapeCasts S512x1
  reduces_S2048x256_S2048 : S2048x256.Reduces [1] S2048
  shapeCasts_S2048_S1x2048 : S2048.ShapeCasts S1x2048
  bitsLt_bf16_f32 : FTy.bits .bf16 < FTy.bits .f32
  transposes_S2048x256_p1_0_S256x2048 : S2048x256.Transposes [1, 0] S256x2048
  broadcasts_S512x1_S512x2048 : S512x1.Broadcasts S512x2048
  broadcasts_S1x2048_S512x2048 : S1x2048.Broadcasts S512x2048
  inb_S512x2305_S512x1_0_0 : ∀ a, (![0, 0] : Fin 2 → Nat) a + S512x1.size a ≤ S512x2305.size a
  h_S512x1 : 0 < S512x1.numel
  inb_S512x2305_S512x256_0_1 : ∀ a, (![0, 1] : Fin 2 → Nat) a + S512x256.size a ≤ S512x2305.size a
  inb_S512x2305_S512x2048_0_257 : ∀ a, (![0, 257] : Fin 2 → Nat) a + S512x2048.size a ≤ S512x2305.size a
  h_S512x2048 : 0 < S512x2048.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2305.size a ≤ S65536x2305.size a
  hwx0_2 : ∀ i : grid0.Coords, EltTy.bits .f32 = 32 ∨ (Rect.block (s := S65536x2305) S512x2305.size (cc0_transform_2 i) (hinb0_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2305.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S2048x256 : Shape := ⟨2, ![2048, 256]⟩
abbrev S_ : Shape := ⟨0, ![]⟩
abbrev S65536 : Shape := ⟨1, ![65536]⟩
abbrev S65536x1 : Shape := ⟨2, ![65536, 1]⟩
abbrev S2048 : Shape := ⟨1, ![2048]⟩
abbrev S1x2048 : Shape := ⟨2, ![1, 2048]⟩
abbrev S65536x2048 : Shape := ⟨2, ![65536, 2048]⟩
abbrev S65536x2305 : Shape := ⟨2, ![65536, 2305]⟩

abbrev nBuf : Space → Nat
  | .hbm => 25
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S2048x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S65536x2048, .f32⟩
  | .hbm, ⟨11, _⟩ => ⟨S65536x2048, .f32⟩
  | .hbm, ⟨12, _⟩ => ⟨S65536x2048, .f32⟩
  | .hbm, ⟨13, _⟩ => ⟨S65536x2048, .f32⟩
  | .hbm, ⟨14, _⟩ => ⟨S_, .f32⟩
  | .hbm, ⟨15, _⟩ => ⟨S65536x2048, .f32⟩
  | .hbm, ⟨16, _⟩ => ⟨S65536x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S65536x1, .f32⟩
  | .hbm, ⟨24, _⟩ => ⟨S65536x2305, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S2048x256_S2048_d1 : S2048x256.ReducesTo [1] S2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  bcast_S_S65536x1 : S_.BroadcastsInDim S65536x1 (![] : Fin 0 → Fin S65536x1.rank)
  concatenates_S65536x1_S65536x256_S65536x2048_S65536x2305_d1 : Shape.Concatenates [S65536x1, S65536x256, S65536x2048] S65536x2305 1
  dot_S65536x256_S2048x256_S65536x2048_1_1_0_0_n_n_wf : DotDims.WF S65536x256 S2048x256 S65536x2048 [1] [1] [0] [0] [] []

variable [Facts₀]

def dot_S65536x256_S2048x256_S65536x2048_1_1_0_0_n_n : DotDims S65536x256 S2048x256 S65536x2048 where
  lhsContracting := [1]
  rhsContracting := [1]
  lhsNonContracting := [0]
  rhsNonContracting := [0]
  lhsBatch := []
  rhsBatch := []
  wf := dot_S65536x256_S2048x256_S65536x2048_1_1_0_0_n_n_wf

class Facts : Prop extends Facts₀ where

variable [Facts]
-- ==== Proof.Spec.lean ====
/-
  What both programs compute, index by index, over the extended reals.

  For data `X` of `N` rows and 256 columns and 2048 centers `C` of 256 columns, the result has `N` rows and
  `1 + 256 + 2048` columns: column 0 holds the constant one, columns `1 … 256` hold the row of `X` itself, and
  column `257 + k` holds the Gaussian of the squared distance from the row to center `k`, the distance expanded as
  `‖x‖² + ‖c‖² − 2 x·c` and scaled by `−5` before the exponential. The row count `N` is a parameter because the
  same function describes one block of 512 rows and the whole array of 65536 rows; an entry of row `r` reads only
  row `r` of `X` (`feat_congr`), which is what lets the blocks be put side by side.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The Gaussian entry for row `r` of the data and center `k`:
    `exp (−5 · ((Σ_d x_d² + Σ_d c_d²) − 2 · Σ_d x_d c_d))`. -/
def gauss {N : ℕ} (X : FVec Ideal ⟨2, ![N, 256]⟩ .f32) (C : FVec Ideal ⟨2, ![2048, 256]⟩ .f32)
    (r : Fin N) (k : Fin 2048) : EReal :=
  Ideal.exp (Ideal.ofBits .f32 0xC0A00000#32 *
    (((∑ d : Fin 256, X (ix2 r d) * X (ix2 r d)) + ∑ d : Fin 256, C (ix2 k d) * C (ix2 k d))
      - Ideal.ofBits .f32 0x40000000#32 * ∑ d : Fin 256, X (ix2 r d) * C (ix2 k d)))

/-- The result at row `r`, column `c`: one, then the data row, then the Gaussians. -/
def featAt {N : ℕ} (X : FVec Ideal ⟨2, ![N, 256]⟩ .f32) (C : FVec Ideal ⟨2, ![2048, 256]⟩ .f32)
    (r : Fin N) (c : Fin 2305) : EReal :=
  if c.val < 1 then Ideal.ofBits .f32 0x3F800000#32
  else if h : c.val < 257 then X (ix2 r ⟨c.val - 1, by omega⟩)
  else gauss X C r ⟨c.val - 257, by have := c.isLt; omega⟩

/-- The whole result as one function of the two arrays. -/
def feat {N : ℕ} (X : FVec Ideal ⟨2, ![N, 256]⟩ .f32) (C : FVec Ideal ⟨2, ![2048, 256]⟩ .f32) :
    FVec Ideal ⟨2, ![N, 2305]⟩ .f32 :=
  fun j => featAt X C (j 0) (j 1)

variable {N : ℕ} (X : FVec Ideal ⟨2, ![N, 256]⟩ .f32) (C : FVec Ideal ⟨2, ![2048, 256]⟩ .f32)

/-- Column 0 is the constant one. -/
theorem feat_one (r : Fin N) (c : Fin 2305) (hc : c.val = 0) :
    feat X C (ix2 r c) = Ideal.ofBits .f32 0x3F800000#32 := by
  show featAt X C r c = _
  unfold featAt
  rw [if_pos (by omega)]

/-- Column `1 + d` is the data at `(r, d)`. -/
theorem feat_data (r : Fin N) (c : Fin 2305) (d : Fin 256) (hc : c.val = 1 + d.val) :
    feat X C (ix2 r c) = X (ix2 r d) := by
  show featAt X C r c = _
  unfold featAt
  have hd := d.isLt
  rw [if_neg (by omega), dif_pos (by omega)]
  exact congrArg (fun q => X (ix2 r q)) (Fin.ext (by show c.val - 1 = d.val; omega))

/-- Column `257 + k` is the Gaussian of row `r` and center `k`. -/
theorem feat_gauss (r : Fin N) (c : Fin 2305) (k : Fin 2048) (hc : c.val = 257 + k.val) :
    feat X C (ix2 r c) = gauss X C r k := by
  show featAt X C r c = _
  unfold featAt
  rw [if_neg (by omega), dif_neg (by omega)]
  exact congrArg (gauss X C r) (Fin.ext (by show c.val - 257 = k.val; omega))

/-- An entry of row `r` depends on the data through row `r` only: if the centers agree, the columns agree, and row
    `j' 0` of another data array `X'` (of any number of rows) is row `j 0` of `X`, then the result of `X'` at `j'`
    is the result of `X` at `j`. -/
theorem feat_congr {N' : ℕ} (X' : FVec Ideal ⟨2, ![N', 256]⟩ .f32) (C' : FVec Ideal ⟨2, ![2048, 256]⟩ .f32)
    (j' : (⟨2, ![N', 2305]⟩ : Shape).Idx) (j : (⟨2, ![N, 2305]⟩ : Shape).Idx)
    (hC : C' = C) (hcol : (j' 1).val = (j 1).val)
    (hrow : ∀ d : Fin 256, X' (ix2 (j' 0) d) = X (ix2 (j 0) d)) :
    feat X' C' j' = feat X C j := by
  subst hC
  show featAt X' C' (j' 0) (j' 1) = featAt X C' (j 0) (j 1)
  rw [show j' 1 = j 1 from Fin.ext hcol]
  unfold featAt gauss
  simp only [hrow]

end Cert.Rbf

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelPayload.lean ====
/-
  The values the kernel's body stores, read at an index.

  The body loads a block `x` of 512 data rows and all 2048 centers `c`. Into columns `257 … 2304` of its output
  block it stores the matrix `exp (−5 · ((‖x_p‖² + ‖c_k‖²) − 2 · x_p·c_k))`: the squared norms are lane sums from a
  zero accumulator, kept as a column (for `x`) or as a row (for `c`) and broadcast to `[512, 2048]`; the inner
  products are one matrix product of `x` with the transposed centers into a zero accumulator, whose operands are
  first narrowed to a shorter float format — a change of format is the identity on the extended reals. Into column 0
  it stores the constant one.
-/
import proofs.«155472_j31482110280409_2_alg».proof.Proof.Gen.KernelIdeal.Skeleton
import proofs.«155472_j31482110280409_2_alg».proof.Proof.Spec
import proofs.«155472_j31482110280409_2_alg».proof.Proof.LibKeepdims
import proofs.«155472_j31482110280409_2_alg».proof.Proof.LibMatmulNN
import Idealize.ShloMosaic.Lib.Pipeline.Value

noncomputable section

open scoped BigOperators

namespace Cert.Rbf.Body

open Cert.KernelIdeal Cert.KernelIdeal.Gen Cert.KernelIdeal.Facts₀
open Idealize.ShloMosaic Idealize.ShloMosaic.ValueIdx

/-- The Gaussian store's value at `(p, k)`. -/
theorem gauss_payload (x0 : Vec Ideal S512x256 .f32) (x1 : Vec Ideal S2048x256 .f32) (p : Fin 512) (k : Fin 2048) :
    k0_pay1 (F := Ideal) x0 x1 (ix2 p k) = gauss x0 x1 p k := by
  unfold k0_pay1 gauss
  refine congrArg Ideal.exp (congrArg (Ideal.ofBits .f32 0xC0A00000#32 * ·) ?_)
  refine congrArg₂ (· - ·) (congrArg₂ (· + ·) ?_ ?_) (congrArg (Ideal.ofBits .f32 0x40000000#32 * ·) ?_)
  · exact rowSum_bcast_apply (mulf x0 x0) _ _ _ _ _ _ p k
  · exact rowSum_bcastRow_apply (mulf x1 x1) _ _ _ _ _ _ p k
  · refine (Cert.LibMatmulNN.matmul_nn_apply dot_S512x256_S256x2048_S512x2048_1_0_0_1_n_n rfl rfl rfl rfl rfl rfl
      none _ _ p k).trans ?_
    refine Finset.sum_congr rfl fun d _ => congrArg (x0 (ix2 p d) * ·) ?_
    exact transpose_apply _ _ _ (ix2 d k) (ix2 k d) (fun b => by match b with | ⟨0, _⟩ => rfl | ⟨1, _⟩ => rfl)

/-- The store of ones. -/
theorem ones_payload (y : S512x1.Idx) : k0_pay2 (F := Ideal) y = Ideal.ofBits .f32 0x3F800000#32 := rfl

end Cert.Rbf.Body

end
-- ==== Proof.KernelPieces.lean ====
/-
  The three stores of the kernel's body are three column ranges of one function.

  The body's run leaves its output block as a list of three pieces: columns `257 … 2304` hold the Gaussian matrix of
  the loaded blocks, columns `1 … 256` the loaded data block itself, column 0 the constant one. A piece at column
  offset `o` places its local `(p, q)` at `(p, o + q)` of the block, so each piece is `feat x c` (with 512 rows)
  restricted to its columns.
-/
import proofs.«155472_j31482110280409_2_alg».proof.Proof.Gen.KernelIdeal.Frame.RunA
import proofs.«155472_j31482110280409_2_alg».proof.Proof.KernelPayload
import Idealize.ShloMosaic.Lib.Pipeline.Value
import Idealize.ShloMosaic.Lib.Tactic

noncomputable section

namespace Cert.Rbf.Body

open Cert.KernelIdeal Cert.KernelIdeal.Gen Cert.KernelIdeal.Facts₀
open Idealize.ShloMosaic Idealize.ShloMosaic.TcCoe Idealize.ShloMosaic.ValueIdx Idealize.SL.Sem Idealize.ShloMosaic.Tactic

theorem hz : (![0, 0] : Fin 2 → Nat) = fun _ => 0 := funext fun a => by fin_cases a <;> rfl

/-- A piece of `n` columns stored at column offset `o` of the `[512, 2305]` block agrees with a function `G` of the
    block's index as soon as its value at `(p, q)` is `G (p, o + q)`. -/
theorem piece_cols {n : ℕ} (o : ℕ) (inb : ∀ a, (![0, o] : Fin 2 → ℕ) a + (![512, n] : Fin 2 → ℕ) a ≤ S512x2305.size a)
    (w : (⟨2, ![512, n]⟩ : Shape).Idx → EReal) (G : S512x2305.Idx → EReal)
    (h : ∀ (p : Fin 512) (q : Fin n) (c : Fin 2305), c.val = o + q.val → w (ix2 p q) = G (ix2 p c)) :
    ∀ x : (Rect.unit (s := S512x2305) ![0, o] ![512, n] inb).shape.Idx,
      w x = G ((Rect.unit (s := S512x2305) ![0, o] ![512, n] inb).emb x) := by
  intro x
  obtain ⟨p, q, rfl⟩ : ∃ (p : Fin 512) (q : Fin n), x = ix2 p q := ⟨x 0, x 1, eq_ix2 x⟩
  have hb : o + n ≤ 2305 := inb 1
  have hq := q.isLt
  rw [h p q ⟨o + q.val, by omega⟩ rfl]
  refine congrArg G (funext fun a => Fin.ext ?_)
  match a with
  | ⟨0, _⟩ => show p.val = 0 + 1 * p.val; omega
  | ⟨1, _⟩ => show o + q.val = o + 1 * q.val; omega

/-- Every piece the body's run leaves in the output block is `feat` of the two loaded blocks on its columns. -/
theorem pieces_eq (c : Dev nD) (i : grid0.Coords) (a1 : Memref sig .tc .vmem S512x256 .f32) (h1 : a1.IsWhole)
    (a2 : Memref sig .tc .vmem S2048x256 .f32) (h2 : a2.IsWhole) (a3 : Memref sig .tc .vmem S512x2305 .f32) (h3 : a3.IsWhole)
    (x0 : Vec Ideal S512x256 .f32) (x1 : Vec Ideal S2048x256 .f32) :
    ∀ p ∈ (kernelRun0_A (F := Ideal) c i a1 h1 a2 h2 a3 h3 x0 x1).1,
      ∀ x : p.1.shape.Idx, p.2 x = feat x0 x1 (p.1.emb x) := by
  unfold kernelRun0_A
  dsimp only
  sl_unfold_words
  simp only [View.readAt_eq_ld, h1.read_unread, h2.read_unread, View.ld_unit_zero (S := S512x256) hz,
    View.ld_unit_zero (S := S2048x256) hz]
  intro p hp
  simp only [List.mem_cons, List.not_mem_nil, or_false] at hp
  rcases hp with rfl | rfl | rfl
  · dsimp only
    exact piece_cols 257 _ _ _ fun p q c hc => (gauss_payload x0 x1 p q).trans (feat_gauss x0 x1 p c q hc).symm
  · dsimp only
    exact piece_cols 1 _ _ _ fun p q c hc => (feat_data x0 x1 p c q hc).symm
  · dsimp only
    exact piece_cols 0 _ _ _ fun p q c hc => (feat_one x0 x1 p c (by omega)).symm

end Cert.Rbf.Body

end
-- ==== Proof.KernelArray.lean ====
/-
  From the blocks to the whole result array.

  Grid point `t` (of 128) loads rows `512 t … 512 t + 511` of the data and all the centers, and writes back rows
  `512 t … 512 t + 511` of the result, every column. What it writes back is `feat` of its two loaded blocks; since a
  row of `feat` reads only the same row of the data, that is rows `512 t …` of `feat` of the whole arrays. The 128
  row blocks cover the result (row `r` lies in block `r / 512`), so after the run the result array is `feat` of the two
  argument arrays.
-/
import proofs.«155472_j31482110280409_2_alg».proof.Proof.Gen.KernelIdeal.Value
import proofs.«155472_j31482110280409_2_alg».proof.Proof.KernelPieces

noncomputable section

namespace Cert.Rbf.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output block after the body is `feat` of the two loaded blocks: its pieces are column ranges of `feat`
    (`pieces_eq`) and they cover the block. -/
theorem out_eq (c : Dev nD) (i : grid0.Coords) (a1 : Memref sig .tc .vmem S512x256 .f32) (h1 : a1.IsWhole)
    (a2 : Memref sig .tc .vmem S2048x256 .f32) (h2 : a2.IsWhole) (a3 : Memref sig .tc .vmem S512x2305 .f32) (h3 : a3.IsWhole)
    (x0 : Vec Ideal S512x256 .f32) (x1 : Vec Ideal S2048x256 .f32) :
    out0_A_2 (F := Ideal) c i a1 h1 a2 h2 a3 h3 x0 x1 = feat x0 x1 := by
  unfold out0_A_2
  rw [View.read_writes_junk_eq_canon]
  funext y
  exact View.canon_apply_of_pieces (feat x0 x1) _ (Cert.Rbf.Body.pieces_eq c i a1 h1 a2 h2 a3 h3 x0 x1) y
    (cover0_A_2 c i a1 h1 a2 h2 a3 h3 x0 x1 y)

/-- The block index of each window at point `t`: the data and the result move down one row block per point, the
    centers stay. Decided over the 128 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The centers' block is the whole array of centers, at every point. -/
theorem centers_block (c : Dev nD) (t : Fin cfg0.N) :
    (iblk m c 1 t : Vec Ideal S2048x256 .f32) = V m c main_arg1 := by
  obtain ⟨-, -, e10, e11, -, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-- Row `p` of the data block at point `t` is row `512 t + p` of the data. -/
theorem data_block (c : Dev nD) (t : Fin cfg0.N) (y : S512x256.Idx) (i : S65536x256.Idx)
    (h0 : (i 0).val = t.val * 512 + (y 0).val) (h1 : (i 1).val = (y 1).val) :
    (iblk m c 0 t : Vec Ideal S512x256 .f32) y = V m c main_arg0 i := by
  obtain ⟨e00, e01, -, -, -, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 2) * 512 + 1 * (y 0).val = (i 0).val; omega
  | ⟨1, _⟩ => show win0_0.index t (1 : Fin 2) * 256 + 1 * (y 1).val = (i 1).val; omega

/-- What point `t` writes back is block `t` of `feat` of the argument arrays. -/
theorem flushed_eq (c : Dev nD) (t : Fin cfg0.N) :
    (dats m 0 c).flushed 2 t
      = ((cfg0.win 2).blk t).view.read (Elt Ideal) (feat (V m c main_arg0) (V m c main_arg1)) := by
  rw [flushed2_A, out_eq]
  obtain ⟨-, -, -, -, e20, e21⟩ := idx_facts t
  funext y
  show feat (iblk m c 0 t) (iblk m c 1 t) y
    = feat (V m c main_arg0) (V m c main_arg1) (((cfg0.win 2).blk t).view.emb y)
  refine feat_congr _ _ _ _ _ _ (centers_block m c t) ?_ fun d => ?_
  · show (y 1).val = win0_2.index t (1 : Fin 2) * 2305 + 1 * (y 1).val; omega
  · refine data_block m c t _ _ ?_ rfl
    show win0_2.index t (0 : Fin 2) * 512 + 1 * (y 0).val = t.val * 512 + (y 0).val; omega

/-- An index of the result array is in point `t`'s block iff each coordinate is in the block's range on its axis. -/
theorem mem_blk (t : Fin cfg0.N) (i : S65536x2305.Idx) :
    i ∈ ((cfg0.win 2).blk t).view.set ↔ ∀ a : Fin 2, win0_2.index t a * S512x2305.size a ≤ (i a).val
      ∧ (i a).val < win0_2.index t a * S512x2305.size a + S512x2305.size a := by
  show i ∈ ((View.whole main_v0).slice (win0_2.rect t)).set ↔ _
  rw [View.set_slice_whole, Rect.mem_set_unit]
  exact Iff.rfl

/-- The result array after the run is `feat` of the argument arrays: row `r` is written by point `r / 512`. -/
theorem final (c : Dev nD) : (dats m 0 c).arrAt 2 cfg0.N = feat (V m c main_arg0) (V m c main_arg1) :=
  (dats m 0 c).arrAt_eq_of_cover 2 _ (fun t _ => flushed_eq m c t) fun i => by
    have hi0 : (i 0).val < 65536 := (i 0).isLt
    have hi1 : (i 1).val < 2305 := (i 1).isLt
    have hN : cfg0.N = 128 := N_0
    have hlt : (i 0).val / 512 < cfg0.N := by rw [hN]; omega
    obtain ⟨-, -, -, -, e20, e21⟩ := idx_facts ⟨(i 0).val / 512, hlt⟩
    refine ⟨⟨(i 0).val / 512, hlt⟩, flush0_2 _, ?_⟩
    rw [mem_blk]
    intro a
    match a with
    | ⟨0, _⟩ =>
      show win0_2.index ⟨(i 0).val / 512, hlt⟩ (0 : Fin 2) * 512 ≤ (i 0).val
        ∧ (i 0).val < win0_2.index ⟨(i 0).val / 512, hlt⟩ (0 : Fin 2) * 512 + 512
      rw [e20]; dsimp only; omega
    | ⟨1, _⟩ =>
      show win0_2.index ⟨(i 0).val / 512, hlt⟩ (1 : Fin 2) * 2305 ≤ (i 1).val
        ∧ (i 1).val < win0_2.index ⟨(i 0).val / 512, hlt⟩ (1 : Fin 2) * 2305 + 2305
      rw [e21]; omega

/-- The kernel's run, read: the result array at `feat` of the arguments, the arguments unchanged. -/
theorem run : θ_run defs (onTc (τ := τ) (main (F := Ideal))) ⟨m, fun _ => 0, ρ⟩ fun r => ∀ c : Dev nD,
      r.2.mem ((c : Thread nD τ).loc main_v0)
        = feat (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Rbf.Kernel

end
-- ==== Proof.LibConcat3.lean ====
/-
  A concatenation of three matrices along the column axis, read at an index given by coordinates.

  `jnp.concatenate([x, y, z], axis=-1)` of an `[N, a]`, an `[N, b]` and an `[N, c]` matrix is an `[N, T]` matrix with
  `T = a + b + c`: at `(r, q)` it is `x (r, q)` for `q < a`, `y (r, q − a)` for `a ≤ q < a + b`, and
  `z (r, q − a − b)` beyond. The three lemmas say so with the column of the piece named by the caller, the relation
  between the two columns a plain equation of numbers.
-/
import Idealize.ShloMosaic.Lib.Pipeline.Value
import Idealize.ShloMosaic.Lib.ValueIdx

noncomputable section

namespace Cert.LibConcat3

open Idealize.ShloMosaic Idealize.ShloMosaic.ValueIdx

variable {α : Type} {N a b c T : ℕ}
variable (x : (⟨2, ![N, a]⟩ : Shape).Idx → α) (y : (⟨2, ![N, b]⟩ : Shape).Idx → α) (z : (⟨2, ![N, c]⟩ : Shape).Idx → α)

/-- The three pieces, as the operation takes them. -/
abbrev pieces : List ((s : Shape) × (s.Idx → α)) := [⟨⟨2, ![N, a]⟩, x⟩, ⟨⟨2, ![N, b]⟩, y⟩, ⟨⟨2, ![N, c]⟩, z⟩]

/-- Off the joined axis (the rows) a piece's coordinate is the result's. -/
private theorem rows_agree {n m : ℕ} (r : Fin N) (i : Fin n) (q : Fin m) (hr : (⟨2, ![N, n]⟩ : Shape).rank = (⟨2, ![N, m]⟩ : Shape).rank) :
    ∀ d : Fin (⟨2, ![N, n]⟩ : Shape).rank, d.cast hr ≠ (1 : Fin 2) → ((ix2 r i : (⟨2, ![N, n]⟩ : Shape).Idx) d).val = ((ix2 r q : (⟨2, ![N, m]⟩ : Shape).Idx) (d.cast hr)).val := by
  intro d hd
  match d with
  | ⟨0, _⟩ => rfl
  | ⟨1, _⟩ => exact absurd rfl hd

/-- A column inside the first piece reads the first piece. -/
theorem concat3_fst (h : Shape.Concatenates ((pieces x y z).map (·.1)) ⟨2, ![N, T]⟩ (1 : Fin 2))
    (r : Fin N) (q : Fin T) (i : Fin a) (hq : q.val = i.val) :
    concatenate ⟨2, ![N, T]⟩ (1 : Fin 2) (pieces x y z) h (ix2 r q) = x (ix2 r i) :=
  concatenate_apply_piece (1 : Fin 2) (pieces x y z) h (ix2 r q) 0 (by show (0 : ℕ) < 3; omega) ⟨2, ![N, a]⟩ x rfl rfl 0 rfl (ix2 r i)
    (rows_agree r i q rfl) (by show 0 + i.val = q.val; omega)

/-- A column inside the second piece reads the second piece, `a` columns to the left. -/
theorem concat3_snd (h : Shape.Concatenates ((pieces x y z).map (·.1)) ⟨2, ![N, T]⟩ (1 : Fin 2))
    (r : Fin N) (q : Fin T) (i : Fin b) (hq : q.val = a + i.val) :
    concatenate ⟨2, ![N, T]⟩ (1 : Fin 2) (pieces x y z) h (ix2 r q) = y (ix2 r i) :=
  concatenate_apply_piece (1 : Fin 2) (pieces x y z) h (ix2 r q) 1 (by show (1 : ℕ) < 3; omega) ⟨2, ![N, b]⟩ y rfl rfl a rfl (ix2 r i)
    (rows_agree r i q rfl) (by show a + i.val = q.val; omega)

/-- A column inside the third piece reads the third piece, `a + b` columns to the left. -/
theorem concat3_thd (h : Shape.Concatenates ((pieces x y z).map (·.1)) ⟨2, ![N, T]⟩ (1 : Fin 2))
    (r : Fin N) (q : Fin T) (i : Fin c) (hq : q.val = a + b + i.val) :
    concatenate ⟨2, ![N, T]⟩ (1 : Fin 2) (pieces x y z) h (ix2 r q) = z (ix2 r i) :=
  concatenate_apply_piece (1 : Fin 2) (pieces x y z) h (ix2 r q) 2 (by show (2 : ℕ) < 3; omega) ⟨2, ![N, c]⟩ z rfl rfl (a + b) rfl (ix2 r i)
    (rows_agree r i q rfl) (by show a + b + i.val = q.val; omega)

end Cert.LibConcat3

end
-- ==== Proof.RefSide.lean ====
/-
  The reference computes `feat`.

  Its last operation joins three matrices along the columns: the column of ones, the data, and the Gaussians of the
  pairwise squared distances. Read at `(r, q)` the join picks one of the three by the column `q`; the first two are
  immediate, and the third is the chain `exp (−5 · ((‖x‖² + ‖c‖²) − 2 · x·c))` read one operation at a time: the two
  squared norms are host sums started from zero (the zero contributes nothing), broadcast along the other axis, and
  the inner product is the contraction over the 256 columns of both operands.
-/
import proofs.«155472_j31482110280409_2_alg».proof.Proof.Gen.ReferenceIdeal.Read
import proofs.«155472_j31482110280409_2_alg».proof.Proof.Spec
import proofs.«155472_j31482110280409_2_alg».proof.Proof.LibConcat3

noncomputable section

open scoped BigOperators

namespace Cert.Rbf.Ref

open Cert.ReferenceIdeal Cert.ReferenceIdeal.Read Idealize.ShloMosaic Idealize.ShloMosaic.ValueIdx

variable (x0 : (⟨S65536x256, .f32⟩ : BufTy).Contents (Elt Ideal)) (x1 : (⟨S2048x256, .f32⟩ : BufTy).Contents (Elt Ideal))

/-- The column of ones. -/
theorem ones_apply (r : Fin 65536) (u : Fin 1) :
    val_main_v16 (F := Ideal) (ix2 r u) = Ideal.ofBits .f32 0x3F800000#32 := by
  rw [val_main_v16_apply, val_main_cst_3_apply]
  rfl

/-- The Gaussian block at `(r, k)`: both squared norms are sums over the 256 columns started from zero, the inner
    product is the contraction of row `r` of the data with row `k` of the centers. -/
theorem gauss_apply (r : Fin 65536) (k : Fin 2048) :
    val_main_v15 (F := Ideal) x0 x1 (ix2 r k) = gauss x0 x1 r k := by
  have e1 : ∀ d : Fin 256, idx_main_v1 (idx_main_v2 (idx_main_v7 (ix2 r k))) d = ix2 r d := fun d =>
    funext fun a => Fin.ext (by match a with | ⟨0, _⟩ => rfl | ⟨1, _⟩ => rfl)
  have e4 : ∀ d : Fin 256, idx_main_v4 (idx_main_v5 (idx_main_v8 (ix2 r k))) d = ix2 k d := fun d =>
    funext fun a => Fin.ext (by match a with | ⟨0, _⟩ => rfl | ⟨1, _⟩ => rfl)
  have el : ∀ d : Fin 256, lidx_main_v6 (ix2 r k) d = ix2 r d := fun d =>
    funext fun a => Fin.ext (by match a with | ⟨0, _⟩ => rfl | ⟨1, _⟩ => rfl)
  have er : ∀ d : Fin 256, ridx_main_v6 (ix2 r k) d = ix2 k d := fun d =>
    funext fun a => Fin.ext (by match a with | ⟨0, _⟩ => rfl | ⟨1, _⟩ => rfl)
  rw [val_main_v15_apply, val_main_v14_apply, val_main_v13_apply, val_main_cst_2_apply, val_main_v12_apply,
    val_main_v9_apply, val_main_v7_apply, val_main_v2_apply, val_main_v1_apply, val_main_v8_apply, val_main_v5_apply,
    val_main_v4_apply, val_main_v11_apply, val_main_v10_apply, val_main_cst_1_apply, val_main_v6_apply]
  simp only [val_main_v0_apply, val_main_v3_apply, val_main_cst_apply, val_main_cst_0_apply, e1, e4, el, er,
    Ideal.mulf_def, Ideal.addf_def, Ideal.subf_def, Ideal.hostUnary_exp_def, Ideal.ofBits_def, Ideal.ofBits_zero_f32,
    zero_add]
  rfl

/-- The reference's result is `feat` of its two arguments. -/
theorem ref_eq : val_main_v17 (F := Ideal) x0 x1 = feat x0 x1 := by
  funext j
  obtain ⟨r, q, rfl⟩ : ∃ (r : Fin 65536) (q : Fin 2305), j = ix2 r q := ⟨j 0, j 1, eq_ix2 j⟩
  have hq := q.isLt
  unfold val_main_v17
  by_cases h0 : q.val < 1
  · refine (Cert.LibConcat3.concat3_fst _ _ _ _ r q (0 : Fin 1) (by show q.val = 0; omega)).trans ?_
    rw [ones_apply, feat_one x0 x1 r q (by omega)]
  · by_cases h1 : q.val < 257
    · refine (Cert.LibConcat3.concat3_snd _ _ _ _ r q (⟨q.val - 1, by omega⟩ : Fin 256)
        (by show q.val = 1 + (q.val - 1); omega)).trans ?_
      exact (feat_data x0 x1 r q ⟨q.val - 1, by omega⟩ (by show q.val = 1 + (q.val - 1); omega)).symm
    · refine (Cert.LibConcat3.concat3_thd _ _ _ _ r q (⟨q.val - 257, by omega⟩ : Fin 2048)
        (by show q.val = 1 + 256 + (q.val - 257); omega)).trans ?_
      rw [gauss_apply, feat_gauss x0 x1 r q ⟨q.val - 257, by omega⟩ (by show q.val = 257 + (q.val - 257); omega)]

end Cert.Rbf.Ref

end
-- ==== Proof.lean ====
/-
  A Gaussian radial-basis feature map, computed block by block, equals its plain array formula.

  For data `X` (65536 rows, 256 columns) and 2048 centers `C` (256 columns) both programs produce the array with
  `1 + 256 + 2048` columns whose row `r` is the constant one, then the row `X_r` itself, then for every center `k`
  the number `exp (−5 · ((‖X_r‖² + ‖C_k‖²) − 2 · X_r·C_k))` (`Cert.Rbf.feat`, Proof/Spec.lean).

  * The reference computes it with whole-array operations; its last operation joins the three column ranges, and read
    at an index each range is the corresponding clause of `feat` (Proof/RefSide.lean). The squared norms are sums
    started from zero and the inner product is a contraction over the 256 columns.
  * The kernel handles 512 rows per grid point: it loads the row block and all the centers, computes the same three
    column ranges for those rows (the squared norms as lane sums, the inner products as one matrix product with the
    transposed centers, the operands narrowed to a shorter float format, which changes nothing over the extended
    reals) and stores them side by side in its output block (Proof/KernelPayload.lean, Proof/KernelPieces.lean). Since
    a row of `feat` reads only the same row of the data, the block written back at point `t` is rows
    `512 t … 512 t + 511` of `feat X C`, and the 128 blocks cover the result (Proof/KernelArray.lean).

  Both sides are literally the same expression of the same sums — same grouping, same literals — so no algebraic law
  of the extended reals is needed, and finiteness of the inputs is not used for the values. The kernel's idealization
  rewrote no operation, so there is nothing to preserve beyond the program's own text.
-/
import proofs.«155472_j31482110280409_2_alg».proof.Defs
import proofs.«155472_j31482110280409_2_alg».proof.Proof.Gen.Kernel
import proofs.«155472_j31482110280409_2_alg».proof.Proof.Gen.Kernel.Skeleton
import proofs.«155472_j31482110280409_2_alg».proof.Proof.Gen.Kernel.Launch
import proofs.«155472_j31482110280409_2_alg».proof.Proof.Gen.Kernel.Points
import proofs.«155472_j31482110280409_2_alg».proof.Proof.Gen.Kernel.Frame
import proofs.«155472_j31482110280409_2_alg».proof.Proof.Gen.KernelIdeal
import proofs.«155472_j31482110280409_2_alg».proof.Proof.Gen.KernelIdeal.Skeleton
import proofs.«155472_j31482110280409_2_alg».proof.Proof.Gen.KernelIdeal.Launch
import proofs.«155472_j31482110280409_2_alg».proof.Proof.Gen.KernelIdeal.Points
import proofs.«155472_j31482110280409_2_alg».proof.Proof.Gen.KernelIdeal.Frame
import proofs.«155472_j31482110280409_2_alg».proof.Proof.Gen.ReferenceIdeal
import proofs.«155472_j31482110280409_2_alg».proof.Proof.Gen.KernelIdeal.Value
import proofs.«155472_j31482110280409_2_alg».proof.Proof.Gen.ReferenceIdeal.Run
import proofs.«155472_j31482110280409_2_alg».proof.Proof.Gen.ReferenceIdeal.Read
import proofs.«155472_j31482110280409_2_alg».proof.Proof.Gen.Pre_finite_inputs
import proofs.«155472_j31482110280409_2_alg».proof.Proof.KernelArray
import proofs.«155472_j31482110280409_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both `feat` of the arguments. -/
theorem algebraic : Cert.algebraic_KernelIdeal_ReferenceIdeal := by
  intro m ρ m' ρ' _ hagree
  refine ⟨_, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
